-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S136x131072 : Shape := ⟨2, ![136, 131072]⟩
abbrev S3x131072 : Shape := ⟨2, ![3, 131072]⟩
abbrev S6x131072 : Shape := ⟨2, ![6, 131072]⟩
abbrev S6 : Shape := ⟨1, ![6]⟩
abbrev S_ : Shape := ⟨0, ![]⟩

class Facts : Prop where
  bcast_S_S136x131072 : S_.BroadcastsInDim S136x131072 (![] : Fin 0 → Fin S136x131072.rank)
  reducesTo_S136x131072_S_d0_1 : S136x131072.ReducesTo [0, 1] S_
  h_S_ : 0 < S_.numel
  bcast_S_S3x131072 : S_.BroadcastsInDim S3x131072 (![] : Fin 0 → Fin S3x131072.rank)
  reducesTo_S3x131072_S_d0_1 : S3x131072.ReducesTo [0, 1] S_
  bcast_S_S6 : S_.BroadcastsInDim S6 (![] : Fin 0 → Fin S6.rank)
  reducesTo_S6_S_d0 : S6.ReducesTo [0] S_

variable [Facts]

def fn_part1 {F : FTy → Type} [FloatOps F] (main_v13 : IVec S_ 1) (main_v16 : IVec S6 1) : IVec S_ 1 :=
  let main_c_5 : IVec S_ 1 := constantI S_ 1 1#1
  let main_v17 : IVec S_ 1 := (fun x v => Host.reduce IntOp.andi x v reducesTo_S6_S_d0 h_S_) main_v16 main_c_5
  let main_v18 : IVec S_ 1 := andi main_v13 main_v17
  main_v18

def fn {F : FTy → Type} [FloatOps F] (main_arg0 : FVec F S136x131072 .f32) (main_arg1 : FVec F S136x131072 .f32) (main_arg2 : FVec F S3x131072 .f32) (main_arg3 : IVec S6x131072 32) (main_arg4 : FVec F S6 .f32) : IVec S_ 1 :=
  let main_v0 : FVec F S136x131072 .f32 := Host.absf main_arg0
  let main_cst : FVec F S_ .f32 := constant S_ .f32 0x7F800000#32
  let main_v1 : FVec F S136x131072 .f32 := broadcastInDim S136x131072 ![] bcast_S_S136x131072 main_cst
  let main_v2 : IVec S136x131072 1 := cmpf .olt main_v0 main_v1
  let main_c : IVec S_ 1 := constantI S_ 1 1#1
  let main_v3 : IVec S_ 1 := (fun x v => Host.reduce IntOp.andi x v reducesTo_S136x131072_S_d0_1 h_S_) main_v2 main_c
  let main_v4 : FVec F S136x131072 .f32 := Host.absf main_arg1
  let main_cst_0 : FVec F S_ .f32 := constant S_ .f32 0x7F800000#32
  let main_v5 : FVec F S136x131072 .f32 := broadcastInDim S136x131072 ![] bcast_S_S136x131072 main_cst_0
  let main_v6 : IVec S136x131072 1 := cmpf .olt main_v4 main_v5
  let main_c_1 : IVec S_ 1 := constantI S_ 1 1#1
  let main_v7 : IVec S_ 1 := (fun x v => Host.reduce IntOp.andi x v reducesTo_S136x131072_S_d0_1 h_S_) main_v6 main_c_1
  let main_v8 : IVec S_ 1 := andi main_v3 main_v7
  let main_v9 : FVec F S3x131072 .f32 := Host.absf main_arg2
  let main_cst_2 : FVec F S_ .f32 := constant S_ .f32 0x7F800000#32
  let main_v10 : FVec F S3x131072 .f32 := broadcastInDim S3x131072 ![] bcast_S_S3x131072 main_cst_2
  let main_v11 : IVec S3x131072 1 := cmpf .olt main_v9 main_v10
  let main_c_3 : IVec S_ 1 := constantI S_ 1 1#1
  let main_v12 : IVec S_ 1 := (fun x v => Host.reduce IntOp.andi x v reducesTo_S3x131072_S_d0_1 h_S_) main_v11 main_c_3
  let main_v13 : IVec S_ 1 := andi main_v8 main_v12
  let main_v14 : FVec F S6 .f32 := Host.absf main_arg4
  let main_cst_4 : FVec F S_ .f32 := constant S_ .f32 0x7F800000#32
  let main_v15 : FVec F S6 .f32 := broadcastInDim S6 ![] bcast_S_S6 main_cst_4
  let main_v16 : IVec S6 1 := cmpf .olt main_v14 main_v15
  fn_part1 (F := F) main_v13 main_v16
-- ==== Kernel.lean ====
abbrev S136x131072 : Shape := ⟨2, ![136, 131072]⟩
abbrev S3x131072 : Shape := ⟨2, ![3, 131072]⟩
abbrev S6x131072 : Shape := ⟨2, ![6, 131072]⟩
abbrev S6 : Shape := ⟨1, ![6]⟩
abbrev S_ : Shape := ⟨0, ![]⟩
abbrev S6x1 : Shape := ⟨2, ![6, 1]⟩
abbrev S16x128 : Shape := ⟨2, ![16, 128]⟩
abbrev S136x8192 : Shape := ⟨2, ![136, 8192]⟩
abbrev S3x8192 : Shape := ⟨2, ![3, 8192]⟩
abbrev S6x8192 : Shape := ⟨2, ![6, 8192]⟩
abbrev S8x128 : Shape := ⟨2, ![8, 128]⟩
abbrev S1x1 : Shape := ⟨2, ![1, 1]⟩
abbrev S8192 : Shape := ⟨1, ![8192]⟩
abbrev S1x8192 : Shape := ⟨2, ![1, 8192]⟩
abbrev S1 : Shape := ⟨1, ![1]⟩

abbrev nBuf : Space → Nat
  | .hbm => 18
  | .vmem => 12
  | .smem => 0
  | _ => 0

abbrev bufTy : (tb : Table) → Fin (tcTables nBuf tb) → BufTy
  | .hbm, ⟨0, _⟩ => ⟨S136x131072, .f32⟩
  | .hbm, ⟨1, _⟩ => ⟨S136x131072, .f32⟩
  | .hbm, ⟨2, _⟩ => ⟨S3x131072, .f32⟩
  | .hbm, ⟨3, _⟩ => ⟨S6x131072, .i32⟩
  | .hbm, ⟨4, _⟩ => ⟨S6, .f32⟩
  | .hbm, ⟨5, _⟩ => ⟨S_, .f32⟩
  | .hbm, ⟨6, _⟩ => ⟨S_, .f32⟩
  | .hbm, ⟨7, _⟩ => ⟨S6, .f32⟩
  | .hbm, ⟨8, _⟩ => ⟨S6, .f32⟩
  | .hbm, ⟨9, _⟩ => ⟨S6x1, .f32⟩
  | .hbm, ⟨10, _⟩ => ⟨S16x128, .f32⟩
  | .hbm, ⟨11, _⟩ => ⟨S1x1, .f32⟩
  | .hbm, ⟨12, _⟩ => ⟨S_, .f32⟩
  | .hbm, ⟨13, _⟩ => ⟨S1x1, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .local _ .vmem, ⟨0, _⟩ => ⟨S6x1, .f32⟩
  | .local _ .vmem, ⟨1, _⟩ => ⟨S136x8192, .f32⟩
  | .local _ .vmem, ⟨2, _⟩ => ⟨S136x8192, .f32⟩
  | .local _ .vmem, ⟨3, _⟩ => ⟨S136x8192, .f32⟩
  | .local _ .vmem, ⟨4, _⟩ => ⟨S136x8192, .f32⟩
  | .local _ .vmem, ⟨5, _⟩ => ⟨S3x8192, .f32⟩
  | .local _ .vmem, ⟨6, _⟩ => ⟨S3x8192, .f32⟩
  | .local _ .vmem, ⟨7, _⟩ => ⟨S6x8192, .i32⟩
  | .local _ .vmem, ⟨8, _⟩ => ⟨S6x8192, .i32⟩
  | .local _ .vmem, ⟨9, _⟩ => ⟨S8x128, .f32⟩
  | .local _ .vmem, ⟨10, _⟩ => ⟨S8x128, .f32⟩
  | .local _ .vmem, ⟨11, _⟩ => ⟨S1x1, .f32⟩
  | _, _ => ⟨S136x131072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v35 : BitVec 1 := Scalar.cmpi .eq arg1 c7_i32
  let v36 : BitVec 32 := Scalar.extui v35
  let c0_i32_18 : BitVec 32 := 0#32
  let v37 : BitVec 1 := Scalar.cmpi .ne v36 c0_i32_18
  v37

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S6x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S136x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S136x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S6x8192 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  reducesTo_S6_S_d0 : S6.ReducesTo [0] S_
  h_S_ : 0 < S_.numel
  bcast_S_S6 : S_.BroadcastsInDim S6 (![] : Fin 0 → Fin S6.rank)
  shapeCasts_S6_S6x1 : S6.ShapeCasts S6x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S6x8192_S6x8192_0_0 : ∀ a, (![0, 0] : Fin 2 → Nat) a + S6x8192.size a ≤ S6x8192.size a
  h_S6x8192 : 0 < S6x8192.numel
  natLt_1_32 : 1 < 32
  inb_S6x1_S6x1_0_0 : ∀ a, (![0, 0] : Fin 2 → Nat) a + S6x1.size a ≤ S6x1.size a
  h_S6x1 : 0 < S6x1.numel
  shapeCasts_S6x1_S6x1 : S6x1.ShapeCasts S6x1
  broadcasts_S6x1_S6x8192 : S6x1.Broadcasts S6x8192
  reduces_S6x8192_S8192 : S6x8192.Reduces [0] S8192
  shapeCasts_S8192_S1x8192 : S8192.ShapeCasts S1x8192
  inb_S3x8192_S3x8192_0_0 : ∀ a, (![0, 0] : Fin 2 → Nat) a + S3x8192.size a ≤ S3x8192.size a
  h_S3x8192 : 0 < S3x8192.numel
  reduces_S3x8192_S8192 : S3x8192.Reduces [0] S8192
  inb_S136x8192_S136x8192_0_0 : ∀ a, (![0, 0] : Fin 2 → Nat) a + S136x8192.size a ≤ S136x8192.size a
  h_S136x8192 : 0 < S136x8192.numel
  reduces_S136x8192_S8192 : S136x8192.Reduces [0] S8192
  reduces_S1x8192_S1 : S1x8192.Reduces [1] S1
  shapeCasts_S1_S1x1 : S1.ShapeCasts S1x1
  broadcasts_S1x1_S8x128 : S1x1.Broadcasts S8x128
  inb_S8x128_S8x128_0_0 : ∀ a, (![0, 0] : Fin 2 → Nat) a + S8x128.size a ≤ S8x128.size a
  h_S8x128 : 0 < S8x128.numel
  slices_S16x128_S1x1_0_0 : S16x128.Slices ![0, 0] S1x1
  shapeCasts_S1x1_S_ : S1x1.ShapeCasts S_
  slices_S16x128_S1x1_8_0 : S16x128.Slices ![8, 0] S1x1
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S6x1.size a ≤ S6x1.size a
  hwx0_0 : ∀ i : grid0.Coords, EltTy.bits .f32 = 32 ∨ (Rect.block (s := S6x1) S6x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S136x8192.size a ≤ S136x131072.size a
  hwx0_1 : ∀ i : grid0.Coords, EltTy.bits .f32 = 32 ∨ (Rect.block (s := S136x131072) S136x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S136x8192.size a ≤ S136x131072.size a
  hwx0_2 : ∀ i : grid0.Coords, EltTy.bits .f32 = 32 ∨ (Rect.block (s := S136x131072) S136x8192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S3x8192.size a ≤ S3x131072.size a
  hwx0_3 : ∀ i : grid0.Coords, EltTy.bits .f32 = 32 ∨ (Rect.block (s := S3x131072) S3x8192.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S6x8192.size a ≤ S6x131072.size a
  hwx0_4 : ∀ i : grid0.Coords, EltTy.bits .i32 = 32 ∨ (Rect.block (s := S6x131072) S6x8192.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x128.size a ≤ S16x128.size a
  hwx0_5 : ∀ i : grid0.Coords, EltTy.bits .f32 = 32 ∨ (Rect.block (s := S16x128) S8x128.size (cc0_transform_5 i) (hinb0_5 i)).WholeWords (EltTy.packing .f32)

variable [Facts₀]

abbrev win0_0 : Pipeline.Window sig grid0 :=
  Pipeline.Window.ofSpec (Memref.whole main_v3) S6x1.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S136x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S136x8192.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S3x8192.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S6x8192.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4) S8x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S136x131072 : Shape := ⟨2, ![136, 131072]⟩
abbrev S3x131072 : Shape := ⟨2, ![3, 131072]⟩
abbrev S6x131072 : Shape := ⟨2, ![6, 131072]⟩
abbrev S6 : Shape := ⟨1, ![6]⟩
abbrev S_ : Shape := ⟨0, ![]⟩
abbrev S6x1 : Shape := ⟨2, ![6, 1]⟩
abbrev S131072 : Shape := ⟨1, ![131072]⟩
abbrev S1x131072 : Shape := ⟨2, ![1, 131072]⟩

abbrev nBuf : Space → Nat
  | .hbm => 34
  | .vmem => 0
  | .smem => 0
  | _ => 0

abbrev bufTy : (tb : Table) → Fin (tcTables nBuf tb) → BufTy
  | .hbm, ⟨0, _⟩ => ⟨S136x131072, .f32⟩
  | .hbm, ⟨1, _⟩ => ⟨S136x131072, .f32⟩
  | .hbm, ⟨2, _⟩ => ⟨S3x131072, .f32⟩
  | .hbm, ⟨3, _⟩ => ⟨S6x131072, .i32⟩
  | .hbm, ⟨4, _⟩ => ⟨S6, .f32⟩
  | .hbm, ⟨5, _⟩ => ⟨S_, .f32⟩
  | .hbm, ⟨6, _⟩ => ⟨S_, .f32⟩
  | .hbm, ⟨7, _⟩ => ⟨S6, .f32⟩
  | .hbm, ⟨8, _⟩ => ⟨S6, .f32⟩
  | .hbm, ⟨9, _⟩ => ⟨S_, .i32⟩
  | .hbm, ⟨10, _⟩ => ⟨S6x131072, .i32⟩
  | .hbm, ⟨11, _⟩ => ⟨S6x131072, .i1⟩
  | .hbm, ⟨12, _⟩ => ⟨S6x131072, .f32⟩
  | .hbm, ⟨13, _⟩ => ⟨S6x1, .f32⟩
  | .hbm, ⟨14, _⟩ => ⟨S6x131072, .f32⟩
  | .hbm, ⟨15, _⟩ => ⟨S6x131072, .f32⟩
  | .hbm, ⟨16, _⟩ => ⟨S_, .f32⟩
  | .hbm, ⟨17, _⟩ => ⟨S131072, .f32⟩
  | .hbm, ⟨18, _⟩ => ⟨S3x131072, .f32⟩
  | .hbm, ⟨19, _⟩ => ⟨S_, .f32⟩
  | .hbm, ⟨20, _⟩ => ⟨S3x131072, .f32⟩
  | .hbm, ⟨21, _⟩ => ⟨S3x131072, .f32⟩
  | .hbm, ⟨22, _⟩ => ⟨S_, .f32⟩
  | .hbm, ⟨23, _⟩ => ⟨S131072, .f32⟩
  | .hbm, ⟨24, _⟩ => ⟨S131072, .f32⟩
  | .hbm, ⟨25, _⟩ => ⟨S1x131072, .f32⟩
  | .hbm, ⟨26, _⟩ => ⟨S136x131072, .f32⟩
  | .hbm, ⟨27, _⟩ => ⟨S136x131072, .f32⟩
  | .hbm, ⟨28, _⟩ => ⟨S136x131072, .f32⟩
  | .hbm, ⟨29, _⟩ => ⟨S136x131072, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | _, _ => ⟨S136x131072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩

abbrev nD : Nat := 1
abbrev τ : Topo := Topo.v7x

variable {F : FTy → Type} [FloatOps F]

class Facts₀ : Prop where
  reducesTo_S6_S_d0 : S6.ReducesTo [0] S_
  h_S_ : 0 < S_.numel
  bcast_S_S6 : S_.BroadcastsInDim S6 (![] : Fin 0 → Fin S6.rank)
  bcast_S_S6x131072 : S_.BroadcastsInDim S6x131072 (![] : Fin 0 → Fin S6x131072.rank)
  bcast_S6_S6x1_0 : S6.BroadcastsInDim S6x1 (![0] : Fin 1 → Fin S6x1.rank)
  bcast_S6x1_S6x131072_0_1 : S6x1.BroadcastsInDim S6x131072 (![0, 1] : Fin 2 → Fin S6x131072.rank)
  reducesTo_S6x131072_S131072_d0 : S6x131072.ReducesTo [0] S131072
  bcast_S_S3x131072 : S_.BroadcastsInDim S3x131072 (![] : Fin 0 → Fin S3x131072.rank)
  reducesTo_S3x131072_S131072_d0 : S3x131072.ReducesTo [0] S131072
  bcast_S131072_S1x131072_1 : S131072.BroadcastsInDim S1x131072 (![1] : Fin 1 → Fin S1x131072.rank)
  bcast_S1x131072_S136x131072_0_1 : S1x131072.BroadcastsInDim S136x131072 (![0, 1] : Fin 2 → Fin S136x131072.rank)
  reducesTo_S136x131072_S_d0_1 : S136x131072.ReducesTo [0, 1] S_

variable [Facts₀]

class Facts : Prop extends Facts₀ where

variable [Facts]
-- ==== Proof.Pieces.lean ====
/-
  What each control case of the kernel's body leaves behind, read as values at any float instance.

  The body keeps a 1×1 running total in a scratch buffer. At the first tile of a core's run (case A) it stores the
  zero block there, reads it back and stores the tile's term added to it; at the later tiles (cases B and C) it adds
  the tile's term to what the tile before left. At the last tile of the run (case C) it also fills the core's 8×128
  output block with the running total. The tile's arithmetic is one pure term of the five input blocks and the running
  total (the payload `k0_pay3`), the fill another (`k0_pay1`): each case's stores, read back over whole buffers
  through the unit rectangle at zero offsets, are those terms.
-/
import proofs.«133901_j17970143166491_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Acc

open Cert.KernelIdeal Cert.KernelIdeal.Gen

variable {F : FTy → Type} [FloatOps F]

theorem hz2 : (![0, 0] : Fin 2 → Nat) = fun _ => 0 := funext fun a => by fin_cases a <;> rfl

/-- A later tile that is not the last (case B) leaves the running total at the tile's term added to the previous total. -/
theorem scratch_B (c : Dev nD) (i : grid0.Coords) (arg2 : Memref sig .tc .vmem S6x1 .f32) (harg2 : arg2.IsWhole) (arg3 : Memref sig .tc .vmem S136x8192 .f32) (harg3 : arg3.IsWhole) (arg4 : Memref sig .tc .vmem S136x8192 .f32) (harg4 : arg4.IsWhole) (arg5 : Memref sig .tc .vmem S3x8192 .f32) (harg5 : arg5.IsWhole) (arg6 : Memref sig .tc .vmem S6x8192 .i32) (harg6 : arg6.IsWhole) (arg7 : Memref sig .tc .vmem S8x128 .f32) (harg7 : arg7.IsWhole) (arg8 : Memref sig .tc .vmem S1x1 .f32) (harg8 : arg8.IsWhole) (hc0 : ¬cond0_0 i) (hc1 : ¬cond0_1 i) (x0 : Vec F S6x1 .f32) (x1 : Vec F S136x8192 .f32) (x2 : Vec F S136x8192 .f32) (x3 : Vec F S3x8192 .f32) (x4 : Vec F S6x8192 .i32) (xs0 : Vec F S1x1 .f32) :
    sout0_B_0 c i arg2 harg2 arg3 harg3 arg4 harg4 arg5 harg5 arg6 harg6 arg7 harg7 arg8 harg8 hc0 hc1 x0 x1 x2 x3 x4 xs0 = k0_pay3 x4 x0 x3 x1 x2 xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 x4 xs0)]
  unfold kernelRun0_B
  dsimp only
  sl_unfold_words
  rw [View.canon_unit_zero hz2]
  simp only [View.readAt_eq_ld, harg2.read_unread, harg3.read_unread, harg4.read_unread, harg5.read_unread, harg6.read_unread, harg8.read_unread, View.ld_unit_zero (S := S6x1) hz2, View.ld_unit_zero (S := S136x8192) hz2, View.ld_unit_zero (S := S3x8192) hz2, View.ld_unit_zero (S := S6x8192) hz2, View.ld_unit_zero (S := S1x1) hz2]

/-- The last tile of a run (case C) leaves the running total the same way. -/
theorem scratch_C (c : Dev nD) (i : grid0.Coords) (arg2 : Memref sig .tc .vmem S6x1 .f32) (harg2 : arg2.IsWhole) (arg3 : Memref sig .tc .vmem S136x8192 .f32) (harg3 : arg3.IsWhole) (arg4 : Memref sig .tc .vmem S136x8192 .f32) (harg4 : arg4.IsWhole) (arg5 : Memref sig .tc .vmem S3x8192 .f32) (harg5 : arg5.IsWhole) (arg6 : Memref sig .tc .vmem S6x8192 .i32) (harg6 : arg6.IsWhole) (arg7 : Memref sig .tc .vmem S8x128 .f32) (harg7 : arg7.IsWhole) (arg8 : Memref sig .tc .vmem S1x1 .f32) (harg8 : arg8.IsWhole) (hc0 : ¬cond0_0 i) (hc1 : cond0_1 i) (x0 : Vec F S6x1 .f32) (x1 : Vec F S136x8192 .f32) (x2 : Vec F S136x8192 .f32) (x3 : Vec F S3x8192 .f32) (x4 : Vec F S6x8192 .i32) (xs0 : Vec F S1x1 .f32) :
    sout0_C_0 c i arg2 harg2 arg3 harg3 arg4 harg4 arg5 harg5 arg6 harg6 arg7 harg7 arg8 harg8 hc0 hc1 x0 x1 x2 x3 x4 xs0 = k0_pay3 x4 x0 x3 x1 x2 xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero hz2]
  simp only [View.readAt_eq_ld, harg2.read_unread, harg3.read_unread, harg4.read_unread, harg5.read_unread, harg6.read_unread, harg8.read_unread, View.ld_unit_zero (S := S6x1) hz2, View.ld_unit_zero (S := S136x8192) hz2, View.ld_unit_zero (S := S3x8192) hz2, View.ld_unit_zero (S := S6x8192) hz2, View.ld_unit_zero (S := S1x1) hz2]

/-- The first tile of a run (case A) stores the zero block, reads it back, and leaves the tile's term added to it. -/
theorem scratch_A (c : Dev nD) (i : grid0.Coords) (arg2 : Memref sig .tc .vmem S6x1 .f32) (harg2 : arg2.IsWhole) (arg3 : Memref sig .tc .vmem S136x8192 .f32) (harg3 : arg3.IsWhole) (arg4 : Memref sig .tc .vmem S136x8192 .f32) (harg4 : arg4.IsWhole) (arg5 : Memref sig .tc .vmem S3x8192 .f32) (harg5 : arg5.IsWhole) (arg6 : Memref sig .tc .vmem S6x8192 .i32) (harg6 : arg6.IsWhole) (arg7 : Memref sig .tc .vmem S8x128 .f32) (harg7 : arg7.IsWhole) (arg8 : Memref sig .tc .vmem S1x1 .f32) (harg8 : arg8.IsWhole) (hc0 : cond0_0 i) (hc1 : ¬cond0_1 i) (x0 : Vec F S6x1 .f32) (x1 : Vec F S136x8192 .f32) (x2 : Vec F S136x8192 .f32) (x3 : Vec F S3x8192 .f32) (x4 : Vec F S6x8192 .i32) :
    sout0_A_0 c i arg2 harg2 arg3 harg3 arg4 harg4 arg5 harg5 arg6 harg6 arg7 harg7 arg8 harg8 hc0 hc1 x0 x1 x2 x3 x4 = k0_pay3 x4 x0 x3 x1 x2 (k0_pay2 (F := F)) := by
  unfold sout0_A_0
  rw [View.read_writes_eq_canon _ _ _ (scover0_A_0 c i arg2 harg2 arg3 harg3 arg4 harg4 arg5 harg5 arg6 harg6 arg7 harg7 arg8 harg8 hc0 hc1 x0 x1 x2 x3 x4)]
  unfold kernelRun0_A
  dsimp only
  sl_unfold_words
  rw [View.canon_cons_unit_zero (S := S1x1) hz2, View.readCov_unit_zero (S := S1x1) _ hz2]
  simp only [View.readAt_eq_ld, harg2.read_unread, harg3.read_unread, harg4.read_unread, harg5.read_unread, harg6.read_unread, harg8.read_unread, View.ld_unit_zero (S := S6x1) hz2, View.ld_unit_zero (S := S136x8192) hz2, View.ld_unit_zero (S := S3x8192) hz2, View.ld_unit_zero (S := S6x8192) hz2, View.ld_unit_zero (S := S1x1) hz2]

/-- The last tile of a run fills the output block with the running total it has just stored. -/
theorem out_C (c : Dev nD) (i : grid0.Coords) (arg2 : Memref sig .tc .vmem S6x1 .f32) (harg2 : arg2.IsWhole) (arg3 : Memref sig .tc .vmem S136x8192 .f32) (harg3 : arg3.IsWhole) (arg4 : Memref sig .tc .vmem S136x8192 .f32) (harg4 : arg4.IsWhole) (arg5 : Memref sig .tc .vmem S3x8192 .f32) (harg5 : arg5.IsWhole) (arg6 : Memref sig .tc .vmem S6x8192 .i32) (harg6 : arg6.IsWhole) (arg7 : Memref sig .tc .vmem S8x128 .f32) (harg7 : arg7.IsWhole) (arg8 : Memref sig .tc .vmem S1x1 .f32) (harg8 : arg8.IsWhole) (hc0 : ¬cond0_0 i) (hc1 : cond0_1 i) (x0 : Vec F S6x1 .f32) (x1 : Vec F S136x8192 .f32) (x2 : Vec F S136x8192 .f32) (x3 : Vec F S3x8192 .f32) (x4 : Vec F S6x8192 .i32) (xs0 : Vec F S1x1 .f32) :
    out0_C_5 c i arg2 harg2 arg3 harg3 arg4 harg4 arg5 harg5 arg6 harg6 arg7 harg7 arg8 harg8 hc0 hc1 x0 x1 x2 x3 x4 xs0 = k0_pay1 (k0_pay3 x4 x0 x3 x1 x2 xs0) := by
  unfold out0_C_5
  rw [View.read_writes_eq_canon _ _ _ (cover0_C_5 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero hz2, View.readCov_unit_zero (S := S1x1) _ hz2]
  simp only [View.readAt_eq_ld, harg2.read_unread, harg3.read_unread, harg4.read_unread, harg5.read_unread, harg6.read_unread, harg8.read_unread, View.ld_unit_zero (S := S6x1) hz2, View.ld_unit_zero (S := S136x8192) hz2, View.ld_unit_zero (S := S3x8192) hz2, View.ld_unit_zero (S := S6x8192) hz2, View.ld_unit_zero (S := S1x1) hz2]

end Cert.KernelIdeal.Acc

end
-- ==== Proof.Algebra.lean ====
/-
  The arithmetic that joins the two programs, over the extended reals and with no program in sight.

  A weighted sum of squares over a [136, 131072] array, every column `b` carrying one weight `w b`, can be taken
  two ways. Column by column inside consecutive tiles of 8192 columns: each tile adds
  `∑ q, w (col p q) * ∑ d, s d (col p q)`, the weight applied AFTER the column's squares are summed; the sixteen
  tiles are added in two runs of eight. Or all at once: `∑ d, ∑ b, w b * s d b`, the weight applied to every square.
  The two agree because a factor passes through a finite sum of NONNEGATIVE extended reals (distributivity on the
  extended reals fails only when addends of opposite sign meet an infinite factor), and a square is nonnegative, the
  infinities' squares included; everything else is commutativity and associativity of addition.
-/
import Mathlib.Data.EReal.Operations
import Mathlib.Algebra.BigOperators.Fin
import Mathlib.Algebra.BigOperators.Intervals
import Mathlib.Algebra.Order.BigOperators.Group.Finset

namespace Cert.WeightedSquares

open Finset

/-- The square of an extended real is nonnegative: `⊥ * ⊥ = ⊤ * ⊤ = ⊤`, and a real's square is a real's square. -/
theorem zero_le_mul_self (x : EReal) : 0 ≤ x * x := by
  induction x using EReal.rec with
  | bot => simp
  | top => simp
  | coe r => rw [← EReal.coe_mul]; exact EReal.coe_nonneg.mpr (mul_self_nonneg r)

/-- A factor passes through a finite sum of nonnegative extended reals, whatever the factor. -/
theorem mul_sum_of_nonneg {ι : Type*} (s : Finset ι) (c : EReal) (f : ι → EReal) (hf : ∀ i ∈ s, 0 ≤ f i) :
    c * ∑ i ∈ s, f i = ∑ i ∈ s, c * f i := by
  classical
  induction s using Finset.induction_on with
  | empty => simp
  | insert a s ha ih =>
    rw [Finset.sum_insert ha, Finset.sum_insert ha,
      EReal.left_distrib_of_nonneg (hf a (Finset.mem_insert_self a s))
        (Finset.sum_nonneg fun i hi => hf i (Finset.mem_insert_of_mem hi)),
      ih fun i hi => hf i (Finset.mem_insert_of_mem hi)]

/-- Column `q` of tile `p`: the tiles are consecutive runs of 8192 columns. -/
def col (p : Fin 16) (q : Fin 8192) : Fin 131072 := ⟨p.val * 8192 + q.val, by omega⟩

theorem col_val (p : Fin 16) (q : Fin 8192) : (col p q).val = p.val * 8192 + q.val := rfl

/-- Every column lies in exactly one tile, at exactly one place. -/
def colEquiv : Fin 16 × Fin 8192 ≃ Fin 131072 where
  toFun x := col x.1 x.2
  invFun b := (⟨b.val / 8192, by omega⟩, ⟨b.val % 8192, by omega⟩)
  left_inv x := by
    rcases x with ⟨⟨a, ha⟩, ⟨b, hb⟩⟩
    exact Prod.ext (Fin.ext (by show (a * 8192 + b) / 8192 = a; omega))
      (Fin.ext (by show (a * 8192 + b) % 8192 = b; omega))
  right_inv b := Fin.ext (by show b.val / 8192 * 8192 + b.val % 8192 = b.val; omega)

/-- What tile `n` adds: over its columns, the column's weight times the column's sum of squares (zero past the
    sixteenth tile, where there is none). -/
noncomputable def tile (w : Fin 131072 → EReal) (s : Fin 136 → Fin 131072 → EReal) (n : ℕ) : EReal :=
  if h : n < 16 then ∑ q : Fin 8192, w (col ⟨n, h⟩ q) * ∑ d : Fin 136, s d (col ⟨n, h⟩ q) else 0

/-- The sixteen tiles' terms, added in two runs of eight, are the weighted sum of all the squares. -/
theorem tiles_eq_total (w : Fin 131072 → EReal) (s : Fin 136 → Fin 131072 → EReal) (hs : ∀ d b, 0 ≤ s d b) :
    (∑ k ∈ range 8, tile w s (0 + k)) + (∑ k ∈ range 8, tile w s (8 + k))
      = ∑ d : Fin 136, ∑ b : Fin 131072, w b * s d b := by
  have h16 : (∑ k ∈ range 8, tile w s (0 + k)) + (∑ k ∈ range 8, tile w s (8 + k)) = ∑ n ∈ range 16, tile w s n := by
    rw [show (16 : ℕ) = 8 + 8 from rfl, Finset.sum_range_add]
    simp only [zero_add]
  have ht : ∀ p : Fin 16, tile w s p.val = ∑ q : Fin 8192, w (col p q) * ∑ d : Fin 136, s d (col p q) := fun p => by
    unfold tile; rw [dif_pos p.isLt]
  rw [h16, Finset.sum_range, Finset.sum_congr rfl fun p _ => ht p,
    ← Fintype.sum_prod_type' (f := fun p q => w (col p q) * ∑ d : Fin 136, s d (col p q))]
  rw [show (∑ x : Fin 16 × Fin 8192, w (col x.1 x.2) * ∑ d : Fin 136, s d (col x.1 x.2))
      = ∑ x : Fin 16 × Fin 8192, (fun b => w b * ∑ d : Fin 136, s d b) (colEquiv x) from rfl,
    Equiv.sum_comp colEquiv (fun b => w b * ∑ d : Fin 136, s d b), Finset.sum_comm]
  exact Finset.sum_congr rfl fun b _ => mul_sum_of_nonneg _ _ _ fun d _ => hs d b

end Cert.WeightedSquares
-- ==== Proof.Spec.lean ====
/-
  The loss both programs compute, as ONE function of the five argument arrays over the extended reals.

  For a column `b` of the batch: its attribute weight is the sum, over the six attributes whose flag word is 1, of the
  inverse frequency `(∑ n) / n k`; its angle weight is `∑ k, 1 - cos (ea k b)` over the three angles; its weight is
  their product. The loss is the sum over all 136 × 131072 entries of the column's weight times the squared
  difference of `x` and `y` there, divided by the number of entries (the literal `0x4B880000`, kept as its word:
  both programs divide by the same word, so its value is never needed).
-/
import proofs.«133901_j17970143166491_2_alg».proof.Proof.Algebra
import Idealize.ShloMosaic.PureOps.Ideal
import Idealize.ShloMosaic.PureOps.Ideal.Laws
import Idealize.ShloMosaic.Lib.ValueIdx

noncomputable section

namespace Cert.WeightedSquares

open Idealize.ShloMosaic Idealize.ShloMosaic.ValueIdx

/-- An attribute flag as a number: 1 where the word is 1, else 0. -/
def flag (v : BitVec 32) : EReal := (((IntOp.cmpi .eq v 1#32).toNat : ℝ) : EReal)

/-- A comparison bit, widened to a word and read as a signed integer, is the bit read as a natural number. -/
theorem toInt_setWidth_bit (b : BitVec 1) : (((b.setWidth 32).toInt : ℝ) : EReal) = ((b.toNat : ℝ) : EReal) := by
  have h : ∀ b : BitVec 1, (b.setWidth 32).toInt = (b.toNat : ℤ) := by decide
  rw [h b]; norm_cast

/-- The inverse frequency of attribute `k`: the total count over its own. -/
def invFreq (n : (⟨1, ![6]⟩ : Shape).Idx → EReal) (k : Fin 6) : EReal :=
  Ideal.div (∑ j : (⟨1, ![6]⟩ : Shape).Idx, n j) (n (ix1 k))

/-- Column `b`'s attribute weight: the inverse frequencies of the attributes it has. -/
def attrWeight (attr : (⟨2, ![6, 131072]⟩ : Shape).Idx → BitVec 32) (n : (⟨1, ![6]⟩ : Shape).Idx → EReal)
    (b : Fin 131072) : EReal :=
  ∑ k : Fin 6, flag (attr (ix2 k b)) * invFreq n k

/-- Column `b`'s angle weight: `∑ k, 1 - cos (ea k b)`. -/
def angleWeight (ea : (⟨2, ![3, 131072]⟩ : Shape).Idx → EReal) (b : Fin 131072) : EReal :=
  ∑ k : Fin 3, (Ideal.ofBits .f32 0x3F800000#32 - Ideal.cos (ea (ix2 k b)))

/-- Column `b`'s weight. -/
def colWeight (ea : (⟨2, ![3, 131072]⟩ : Shape).Idx → EReal) (attr : (⟨2, ![6, 131072]⟩ : Shape).Idx → BitVec 32)
    (n : (⟨1, ![6]⟩ : Shape).Idx → EReal) (b : Fin 131072) : EReal :=
  attrWeight attr n b * angleWeight ea b

/-- The squared difference at row `d`, column `b`. -/
def sqDiff (x y : (⟨2, ![136, 131072]⟩ : Shape).Idx → EReal) (d : Fin 136) (b : Fin 131072) : EReal :=
  (x (ix2 d b) - y (ix2 d b)) * (x (ix2 d b) - y (ix2 d b))

theorem sqDiff_nonneg (x y : (⟨2, ![136, 131072]⟩ : Shape).Idx → EReal) (d : Fin 136) (b : Fin 131072) :
    0 ≤ sqDiff x y d b := zero_le_mul_self _

/-- The weighted sum of all the squared differences. -/
def total (x y : (⟨2, ![136, 131072]⟩ : Shape).Idx → EReal) (ea : (⟨2, ![3, 131072]⟩ : Shape).Idx → EReal)
    (attr : (⟨2, ![6, 131072]⟩ : Shape).Idx → BitVec 32) (n : (⟨1, ![6]⟩ : Shape).Idx → EReal) : EReal :=
  ∑ d : Fin 136, ∑ b : Fin 131072, colWeight ea attr n b * sqDiff x y d b

/-- The loss: the weighted sum over the number of entries. -/
def loss (x y : (⟨2, ![136, 131072]⟩ : Shape).Idx → EReal) (ea : (⟨2, ![3, 131072]⟩ : Shape).Idx → EReal)
    (attr : (⟨2, ![6, 131072]⟩ : Shape).Idx → BitVec 32) (n : (⟨1, ![6]⟩ : Shape).Idx → EReal) : EReal :=
  Ideal.div (total x y ea attr n) (Ideal.ofBits .f32 0x4B880000#32)

/-- The sixteen tiles' terms of the column-by-column reading, in two runs of eight, add up to `total`. -/
theorem tiles_eq (x y : (⟨2, ![136, 131072]⟩ : Shape).Idx → EReal) (ea : (⟨2, ![3, 131072]⟩ : Shape).Idx → EReal)
    (attr : (⟨2, ![6, 131072]⟩ : Shape).Idx → BitVec 32) (n : (⟨1, ![6]⟩ : Shape).Idx → EReal) :
    (∑ k ∈ Finset.range 8, tile (colWeight ea attr n) (sqDiff x y) (0 + k))
        + (∑ k ∈ Finset.range 8, tile (colWeight ea attr n) (sqDiff x y) (8 + k))
      = total x y ea attr n :=
  tiles_eq_total _ _ (sqDiff_nonneg x y)

end Cert.WeightedSquares

end
-- ==== Proof.Payload.lean ====
/-
  The tile's arithmetic, read at the extended reals.

  One grid point holds a tile of 8192 columns: the [136, 8192] blocks of the two big arrays, the [3, 8192] block of
  the angles, the [6, 8192] block of the attribute flags, the [6, 1] column of inverse frequencies, and the 1×1
  running total. Its term is the running total plus, summed over the tile's columns `q`, the column's attribute weight
  (the inverse frequencies of the flags that are 1) times its angle weight (`∑ k, 1 - cos`) times the column's sum of
  squared differences. Each reduction over the rows is a plain finite sum at the extended reals; a change of shape
  moves no entry; a flag bit widened to a word and converted as a signed integer is the bit's value.
-/
import proofs.«133901_j17970143166491_2_alg».proof.Proof.Gen.KernelIdeal.Skeleton
import proofs.«133901_j17970143166491_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tile

open Idealize.ShloMosaic Idealize.ShloMosaic.ValueIdx Cert.KernelIdeal Cert.KernelIdeal.Gen Cert.WeightedSquares

/-- A sum over the rows of an [n, 8192] block, read at column `q`: the sum of that column's entries. -/
theorem sum_rows_apply {n : ℕ} (src : FVec Ideal ⟨2, ![n, 8192]⟩ .f32)
    (h : (⟨2, ![n, 8192]⟩ : Shape).Reduces [0] ⟨1, ![8192]⟩)
    (hacc : (0x00000000#32 : BitVec 32) = 0x00000000#32) (q : Fin 8192) :
    multiReduction .add [0] ⟨1, ![8192]⟩ src 0x00000000#32 h (.inl rfl) hacc (ix1 q) = ∑ d : Fin n, src (ix2 d q) :=
  (Ideal.multiReduction_add_single src 0x00000000#32 h (.inl rfl) hacc (ix1 q)).trans
    (Finset.sum_congr rfl fun d _ => congrArg src (funext fun a => Fin.ext (by
      match a with
      | ⟨0, _⟩ => rfl
      | ⟨1, _⟩ => rfl)))

/-- A sum along the one row of a [1, 8192] block: the sum of its entries. -/
theorem sum_lane_apply (src : FVec Ideal ⟨2, ![1, 8192]⟩ .f32)
    (h : (⟨2, ![1, 8192]⟩ : Shape).Reduces [1] ⟨1, ![1]⟩)
    (hacc : (0x00000000#32 : BitVec 32) = 0x00000000#32) :
    multiReduction .add [1] ⟨1, ![1]⟩ src 0x00000000#32 h (.inl rfl) hacc (ix1 (0 : Fin 1))
      = ∑ q : Fin 8192, src (ix2 (0 : Fin 1) q) :=
  (Ideal.multiReduction_add_single src 0x00000000#32 h (.inl rfl) hacc (ix1 (0 : Fin 1))).trans
    (Finset.sum_congr rfl fun q _ => congrArg src (funext fun a => Fin.ext (by
      match a with
      | ⟨0, _⟩ => rfl
      | ⟨1, _⟩ => rfl)))

/-- A [6, 1] column broadcast to [6, 8192] reads, at `(k, q)`, the column's entry `k`. -/
theorem bcast_col_apply {α : Type} (v : (⟨2, ![6, 1]⟩ : Shape).Idx → α)
    (h : (⟨2, ![6, 1]⟩ : Shape).Broadcasts ⟨2, ![6, 8192]⟩) (k : Fin 6) (q : Fin 8192) :
    broadcastTo ⟨2, ![6, 8192]⟩ v h (ix2 k q) = v (ix2 k (0 : Fin 1)) := by
  refine broadcastTo_apply v h (ix2 k q) (ix2 k (0 : Fin 1)) fun ax => ?_
  match ax with
  | ⟨0, _⟩ => show k.val = if (6 : ℕ) = 1 then 0 else k.val; rw [if_neg (by decide)]
  | ⟨1, _⟩ => show 0 = if (1 : ℕ) = 1 then 0 else q.val; rw [if_pos rfl]

/-- A 1×1 block broadcast to [8, 128] reads its one entry everywhere. -/
theorem bcast_one_apply {α : Type} (v : (⟨2, ![1, 1]⟩ : Shape).Idx → α)
    (h : (⟨2, ![1, 1]⟩ : Shape).Broadcasts ⟨2, ![8, 128]⟩) (r : Fin 8) (l : Fin 128) :
    broadcastTo ⟨2, ![8, 128]⟩ v h (ix2 r l) = v (ix2 (0 : Fin 1) (0 : Fin 1)) := by
  refine broadcastTo_apply v h (ix2 r l) (ix2 (0 : Fin 1) (0 : Fin 1)) fun ax => ?_
  match ax with
  | ⟨0, _⟩ => show 0 = if (1 : ℕ) = 1 then 0 else r.val; rw [if_pos rfl]
  | ⟨1, _⟩ => show 0 = if (1 : ℕ) = 1 then 0 else l.val; rw [if_pos rfl]

/-- Column `q`'s attribute weight, as the body computes it from the flag block and the inverse-frequency column. -/
theorem attr_apply (v3 : Vec Ideal S6x8192 .i32) (v8 : Vec Ideal S6x1 .f32) (q : Fin 8192) :
    shapeCast S1x8192 (multiReduction .add [0] S8192
        (mulf (sitofp (F := Ideal) .f32 (extui 32 (cmpi .eq v3 (broadcast S6x8192 1#32)) natLt_1_32))
          (broadcastTo S6x8192 (shapeCast S6x1 v8 shapeCasts_S6x1_S6x1) broadcasts_S6x1_S6x8192))
        0x00000000#32 reduces_S6x8192_S8192 (.inl rfl) rfl) shapeCasts_S8192_S1x8192 (ix2 (0 : Fin 1) q)
      = ∑ k : Fin 6, flag (v3 (ix2 k q)) * v8 (ix2 k (0 : Fin 1)) :=
  (shapeCast_a_1a_apply _ _ (0 : Fin 1) q).trans ((sum_rows_apply _ _ _ q).trans
    (Finset.sum_congr rfl fun k _ => congrArg₂ (· * ·) (toInt_setWidth_bit _)
      ((bcast_col_apply _ _ k q).trans (congrFun (shapeCast_self _ _) _))))

/-- Column `q`'s angle weight, as the body computes it from the angle block. -/
theorem angle_apply (v14 : Vec Ideal S3x8192 .f32) (q : Fin 8192) :
    shapeCast S1x8192 (multiReduction .add [0] S8192
        (subf (broadcast S3x8192 (Scalar.ofBits (F := Ideal) .f32 0x3F800000#32)) (cos v14))
        0x00000000#32 reduces_S3x8192_S8192 (.inl rfl) rfl) shapeCasts_S8192_S1x8192 (ix2 (0 : Fin 1) q)
      = ∑ k : Fin 3, (Ideal.ofBits .f32 0x3F800000#32 - Ideal.cos (v14 (ix2 k q))) :=
  (shapeCast_a_1a_apply _ _ (0 : Fin 1) q).trans ((sum_rows_apply _ _ _ q).trans
    (Finset.sum_congr rfl fun k _ => rfl))

/-- Column `q`'s sum of squared differences, as the body computes it from the two big blocks. -/
theorem squares_apply (v21 v22 : Vec Ideal S136x8192 .f32) (q : Fin 8192) :
    shapeCast S1x8192 (multiReduction .add [0] S8192
        (mulf (F := Ideal) (φ := .f32) (subf (F := Ideal) (φ := .f32) v21 v22) (subf (F := Ideal) (φ := .f32) v21 v22))
        0x00000000#32 reduces_S136x8192_S8192 (.inl rfl) rfl) shapeCasts_S8192_S1x8192 (ix2 (0 : Fin 1) q)
      = ∑ d : Fin 136, (v21 (ix2 d q) - v22 (ix2 d q)) * (v21 (ix2 d q) - v22 (ix2 d q)) :=
  (shapeCast_a_1a_apply _ _ (0 : Fin 1) q).trans ((sum_rows_apply _ _ _ q).trans
    (Finset.sum_congr rfl fun d _ => rfl))

/-- THE TILE'S TERM: the running total plus, over the tile's columns, weight times sum of squares. -/
theorem pay3_apply (v3 : Vec Ideal S6x8192 .i32) (v8 : Vec Ideal S6x1 .f32) (v14 : Vec Ideal S3x8192 .f32)
    (v21 v22 : Vec Ideal S136x8192 .f32) (v30 : Vec Ideal S1x1 .f32) :
    k0_pay3 (F := Ideal) v3 v8 v14 v21 v22 v30 (ix2 (0 : Fin 1) (0 : Fin 1))
      = v30 (ix2 (0 : Fin 1) (0 : Fin 1))
        + ∑ q : Fin 8192, ((∑ k : Fin 6, flag (v3 (ix2 k q)) * v8 (ix2 k (0 : Fin 1)))
            * (∑ k : Fin 3, (Ideal.ofBits .f32 0x3F800000#32 - Ideal.cos (v14 (ix2 k q)))))
          * (∑ d : Fin 136, (v21 (ix2 d q) - v22 (ix2 d q)) * (v21 (ix2 d q) - v22 (ix2 d q))) := by
  unfold k0_pay3
  dsimp only
  refine (congrFun (shapeCast_self _ _) _).trans ?_
  refine (addf_apply _ _ _).trans (congrArg (v30 (ix2 (0 : Fin 1) (0 : Fin 1)) + ·) ?_)
  refine (shapeCast_a_1a_apply _ _ (0 : Fin 1) (0 : Fin 1)).trans ?_
  refine (sum_lane_apply _ _ _).trans (Finset.sum_congr rfl fun q _ => ?_)
  exact congrArg₂ (· * ·) (congrArg₂ (· * ·) (attr_apply v3 v8 q) (angle_apply v14 q)) (squares_apply v21 v22 q)

/-- THE FILL: every entry of the output block is the running total. -/
theorem pay1_apply (v38 : Vec Ideal S1x1 .f32) (r : Fin 8) (l : Fin 128) :
    k0_pay1 (F := Ideal) v38 (ix2 r l) = v38 (ix2 (0 : Fin 1) (0 : Fin 1)) := by
  unfold k0_pay1
  exact (bcast_one_apply _ _ r l).trans (congrFun (shapeCast_self _ _) _)

/-- THE RESET: the zero block's one entry is zero. -/
theorem pay2_apply : k0_pay2 (F := Ideal) (ix2 (0 : Fin 1) (0 : Fin 1)) = 0 := by
  unfold k0_pay2
  exact (congrFun (shapeCast_self _ _) _).trans Ideal.ofBits_zero_f32

end Cert.KernelIdeal.Tile

end
-- ==== Proof.Blocks.lean ====
/-
  Where each tile's blocks sit in the arrays, and what the inverse-frequency column holds.

  Grid point `t` (sixteen of them: two runs of eight) reads the tile of columns `8192 t … 8192 t + 8191`: block `t` of
  each of the four batch-indexed arrays, all rows. So entry `(r, q)` of a block is entry `(r, 8192 t + q)` of its array.
  The [6, 1] column every point reads is computed before the launch: entry `k` is the sum of the six counts
  divided by count `k`.
-/
import proofs.«133901_j17970143166491_2_alg».proof.Proof.Gen.KernelIdeal.Frame
import proofs.«133901_j17970143166491_2_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Blocks

open Cert.KernelIdeal Cert.KernelIdeal.Gen Cert.WeightedSquares Idealize.ShloMosaic.ValueIdx

variable (m : (ℓ : Loc nD τ sig) → Buf (Elt Ideal) ℓ)

/-- A grid point is one of sixteen. -/
theorem lt16 (t : Fin cfg0.N) : t.val < 16 := lt_of_lt_of_eq t.isLt N_0

/-- The tile a grid point reads. -/
abbrev tileOf (t : Fin cfg0.N) : Fin 16 := ⟨t.val, lt16 t⟩

/-- The block index of each window at each point: the inverse-frequency column never moves; the four batch-indexed
    inputs are at block `(0, t)`; the output is at block `(t / 8, 0)`. -/
theorem idx_facts : ∀ t : Fin cfg0.N,
    (win0_0.index t 0 = 0 ∧ win0_0.index t 1 = 0)
    ∧ (win0_1.index t 0 = 0 ∧ win0_1.index t 1 = t.val)
    ∧ (win0_2.index t 0 = 0 ∧ win0_2.index t 1 = t.val)
    ∧ (win0_3.index t 0 = 0 ∧ win0_3.index t 1 = t.val)
    ∧ (win0_4.index t 0 = 0 ∧ win0_4.index t 1 = t.val)
    ∧ (win0_5.index t 0 = t.val / 8 ∧ win0_5.index t 1 = 0) :=
  (by decide +kernel : ∀ t : Fin grid0.N, _)

/-- Entry `(d, q)` of the first big array's block at point `t` is its entry `(d, 8192 t + q)`. -/
theorem blk1_apply (c : Dev nD) (t : Fin cfg0.N) (d : Fin 136) (q : Fin 8192) :
    (iblk m c 1 t : Vec Ideal S136x8192 .f32) (ix2 d q)
      = m ((c : Thread nD τ).loc main_arg0) (ix2 d (col (tileOf t) q)) := by
  unfold iblk
  rw [View.read_apply]
  show V m c main_arg0 _ = _
  refine (congrFun (V_main_arg0 m c) _).trans (congrArg _ (funext fun a => Fin.ext ?_))
  match a with
  | ⟨0, _⟩ => show win0_1.index t 0 * 136 + 1 * d.val = d.val; rw [(idx_facts t).2.1.1]; omega
  | ⟨1, _⟩ => show win0_1.index t 1 * 8192 + 1 * q.val = t.val * 8192 + q.val; rw [(idx_facts t).2.1.2]; omega

/-- The same for the second big array. -/
theorem blk2_apply (c : Dev nD) (t : Fin cfg0.N) (d : Fin 136) (q : Fin 8192) :
    (iblk m c 2 t : Vec Ideal S136x8192 .f32) (ix2 d q)
      = m ((c : Thread nD τ).loc main_arg1) (ix2 d (col (tileOf t) q)) := by
  unfold iblk
  rw [View.read_apply]
  show V m c main_arg1 _ = _
  refine (congrFun (V_main_arg1 m c) _).trans (congrArg _ (funext fun a => Fin.ext ?_))
  match a with
  | ⟨0, _⟩ => show win0_2.index t 0 * 136 + 1 * d.val = d.val; rw [(idx_facts t).2.2.1.1]; omega
  | ⟨1, _⟩ => show win0_2.index t 1 * 8192 + 1 * q.val = t.val * 8192 + q.val; rw [(idx_facts t).2.2.1.2]; omega

/-- The same for the angles. -/
theorem blk3_apply (c : Dev nD) (t : Fin cfg0.N) (d : Fin 3) (q : Fin 8192) :
    (iblk m c 3 t : Vec Ideal S3x8192 .f32) (ix2 d q)
      = m ((c : Thread nD τ).loc main_arg2) (ix2 d (col (tileOf t) q)) := by
  unfold iblk
  rw [View.read_apply]
  show V m c main_arg2 _ = _
  refine (congrFun (V_main_arg2 m c) _).trans (congrArg _ (funext fun a => Fin.ext ?_))
  match a with
  | ⟨0, _⟩ => show win0_3.index t 0 * 3 + 1 * d.val = d.val; rw [(idx_facts t).2.2.2.1.1]; omega
  | ⟨1, _⟩ => show win0_3.index t 1 * 8192 + 1 * q.val = t.val * 8192 + q.val; rw [(idx_facts t).2.2.2.1.2]; omega

/-- The same for the attribute flags. -/
theorem blk4_apply (c : Dev nD) (t : Fin cfg0.N) (d : Fin 6) (q : Fin 8192) :
    (iblk m c 4 t : Vec Ideal S6x8192 .i32) (ix2 d q)
      = m ((c : Thread nD τ).loc main_arg3) (ix2 d (col (tileOf t) q)) := by
  unfold iblk
  rw [View.read_apply]
  show V m c main_arg3 _ = _
  refine (congrFun (V_main_arg3 m c) _).trans (congrArg _ (funext fun a => Fin.ext ?_))
  match a with
  | ⟨0, _⟩ => show win0_4.index t 0 * 6 + 1 * d.val = d.val; rw [(idx_facts t).2.2.2.2.1.1]; omega
  | ⟨1, _⟩ => show win0_4.index t 1 * 8192 + 1 * q.val = t.val * 8192 + q.val; rw [(idx_facts t).2.2.2.2.1.2]; omega

/-- What the host leaves in the inverse-frequency column before the launch: the counts' sum, spread over six entries,
    divided entry by entry by the counts, as a [6, 1] column. -/
theorem V_main_v3 (c : Dev nD) :
    (V m c main_v3 : S6x1.Idx → EReal)
      = shapeCast S6x1 (Host.divf (F := Ideal) (broadcastInDim S6 ![] bcast_S_S6
          (Host.reduceAdd (F := Ideal) (m ((c : Thread nD τ).loc main_arg4)) (constant (F := Ideal) S_ .f32 0x00000000#32) reducesTo_S6_S_d0 h_S_))
          (m ((c : Thread nD τ).loc main_arg4))) shapeCasts_S6_S6x1 := by
  show StableHlo.after hostOps0 (fun b => m (c, b)) (Proc.devRef .tc main_v3) = _
  after_results
  rfl

/-- Entry `k` of the column every point reads is the inverse frequency of attribute `k`. -/
theorem blk0_apply (c : Dev nD) (t : Fin cfg0.N) (k : Fin 6) :
    (iblk m c 0 t : Vec Ideal S6x1 .f32) (ix2 k (0 : Fin 1)) = invFreq (m ((c : Thread nD τ).loc main_arg4)) k := by
  unfold iblk
  rw [View.read_apply]
  show V m c main_v3 _ = _
  refine (congrFun (V_main_v3 m c) _).trans ?_
  refine (shapeCast_apply _ shapeCasts_S6_S6x1 _ (ix1 k) ?_).trans ?_
  · rw [Shape.rowMajor_val_one, Shape.rowMajor_val_two]
    show k.val = (win0_0.index t 0 * 6 + 1 * k.val) * 1 + (win0_0.index t 1 * 1 + 1 * 0)
    rw [(idx_facts t).1.1, (idx_facts t).1.2]; omega
  show Ideal.div _ _ = _
  unfold invFreq
  refine congrArg (fun z => Ideal.div z _) ?_
  refine (broadcastInDim_apply _ bcast_S_S6 _ (ix1 k) ix0 (fun a => a.elim0)).trans ?_
  simp only [Host.reduceAdd, Ideal.hostReduceAdd_def]
  refine (Ideal.hostReduceAdd_total reducesTo_S6_S_d0 (fun b => b.elim0) _ _ ix0).trans ?_
  show Ideal.ofBits .f32 0x00000000#32 + _ = _
  rw [Ideal.ofBits_zero_f32, zero_add]

end Cert.KernelIdeal.Blocks

end
-- ==== Proof.Running.lean ====
/-
  The running total, point by point, and what it adds up to.

  Each core walks its run of eight tiles. The 1×1 scratch holds a running total: the run's first point resets it to
  zero and adds its tile's term; every later point adds its own tile's term to what the point before left. So after
  point `t` it holds the sum of the terms of the tiles `8 (t / 8) … t` — a fold over the run, unrolled once by
  induction along the run, never by listing the sixteen points. At the run's last point the core's 8×128 output block is
  filled with that total, which is then the sum of the run's eight terms.
-/
import proofs.«133901_j17970143166491_2_alg».proof.Proof.Pieces
import proofs.«133901_j17970143166491_2_alg».proof.Proof.Payload
import proofs.«133901_j17970143166491_2_alg».proof.Proof.Blocks

set_option maxRecDepth 16384

noncomputable section

open Idealize.ShloMosaic Idealize.ShloMosaic.TcCoe Idealize.SL.Sem
open Idealize.ShloMosaic.Pipeline (Dat)

namespace Cert.KernelIdeal.Running

open Cert.KernelIdeal Cert.KernelIdeal.Gen Cert.WeightedSquares Idealize.ShloMosaic.ValueIdx

variable (m : (ℓ : Loc nD τ sig) → Buf (Elt Ideal) ℓ)

/-- A 1×1 block has one index. -/
theorem idx11 (i : S1x1.Idx) : i = ix2 (0 : Fin 1) (0 : Fin 1) :=
  (eq_ix2 i).trans (congrArg₂ ix2
    (Fin.ext (by have h : (i 0).val < 1 := (i 0).isLt; show (i 0).val = 0; omega))
    (Fin.ext (by have h : (i 1).val < 1 := (i 1).isLt; show (i 1).val = 0; omega)))

/-- The zero block's entry is zero. -/
theorem pay2_zero (i : S1x1.Idx) : k0_pay2 (F := Ideal) i = 0 := by
  obtain rfl := idx11 i
  exact Tile.pay2_apply

/-- The column weights, from the launch contents of the angles, the flags and the counts on core `c`. -/
abbrev W (c : Dev nD) : Fin 131072 → EReal :=
  colWeight (m ((c : Thread nD τ).loc main_arg2)) (m ((c : Thread nD τ).loc main_arg3)) (m ((c : Thread nD τ).loc main_arg4))

/-- The squared differences, from the launch contents of the two big arrays on core `c`. -/
abbrev Sq (c : Dev nD) : Fin 136 → Fin 131072 → EReal :=
  sqDiff (m ((c : Thread nD τ).loc main_arg0)) (m ((c : Thread nD τ).loc main_arg1))

/-- The body's arithmetic at point `n`, over a running total. -/
def step (c : Dev nD) (n : ℕ) (h : n < cfg0.N) (acc : Vec Ideal S1x1 .f32) : Vec Ideal S1x1 .f32 :=
  k0_pay3 (iblk m c 4 ⟨n, h⟩) (iblk m c 0 ⟨n, h⟩) (iblk m c 3 ⟨n, h⟩) (iblk m c 1 ⟨n, h⟩) (iblk m c 2 ⟨n, h⟩) acc

/-- It adds tile `n`'s term to the running total. -/
theorem step_apply (c : Dev nD) (n : ℕ) (h : n < cfg0.N) (acc : Vec Ideal S1x1 .f32) (i : S1x1.Idx) :
    step m c n h acc i = acc i + tile (W m c) (Sq m c) n := by
  obtain rfl := idx11 i
  unfold step
  rw [Tile.pay3_apply]
  simp only [Blocks.blk0_apply, Blocks.blk1_apply, Blocks.blk2_apply, Blocks.blk3_apply, Blocks.blk4_apply]
  unfold tile
  rw [dif_pos (Blocks.lt16 ⟨n, h⟩)]
  rfl

/-- At the first point of a run the scratch is reset: the point's term over the zero block. -/
theorem scratch_reset (c : Dev nD) (n : ℕ) (h : n < cfg0.N) (h0 : n % 8 = 0) :
    (outsAt0 m c n h).2 = step m c n h (k0_pay2 (F := Ideal)) := by
  have h1 : ¬n % 8 = 7 := by omega
  exact (congrArg Prod.snd (outsAt0_A m c ⟨n, h⟩ h0 h1)).trans
    (Acc.scratch_A (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) scM0_0 (Memref.isWhole_whole _) ((hcond0_0 ⟨n, h⟩).mpr h0) (fun h' => h1 ((hcond0_1 ⟨n, h⟩).mp h')) (iblk m c 0 ⟨n, h⟩) (iblk m c 1 ⟨n, h⟩) (iblk m c 2 ⟨n, h⟩) (iblk m c 3 ⟨n, h⟩) (iblk m c 4 ⟨n, h⟩))

/-- At every other point it steps from what the point before left. -/
theorem scratch_step (c : Dev nD) (n : ℕ) (h : n + 1 < cfg0.N) (hne : ¬(n + 1) % 8 = 0) :
    (outsAt0 m c (n + 1) h).2 = step m c (n + 1) h (outsAt0 m c n (Nat.lt_of_succ_lt h)).2 := by
  by_cases h1 : (n + 1) % 8 = 7
  · exact (congrArg Prod.snd (outsAt0_C m c ⟨n + 1, h⟩ hne h1)).trans
      (Acc.scratch_C (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) (fun h' => hne ((hcond0_0 ⟨n + 1, h⟩).mp h')) ((hcond0_1 ⟨n + 1, h⟩).mpr h1) (iblk m c 0 ⟨n + 1, h⟩) (iblk m c 1 ⟨n + 1, h⟩) (iblk m c 2 ⟨n + 1, h⟩) (iblk m c 3 ⟨n + 1, h⟩) (iblk m c 4 ⟨n + 1, h⟩) (outsAt0 m c n (Nat.lt_of_succ_lt h)).2)
  · exact (congrArg Prod.snd (outsAt0_B m c ⟨n + 1, h⟩ hne h1)).trans
      (Acc.scratch_B (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) (fun h' => hne ((hcond0_0 ⟨n + 1, h⟩).mp h')) (fun h' => h1 ((hcond0_1 ⟨n + 1, h⟩).mp h')) (iblk m c 0 ⟨n + 1, h⟩) (iblk m c 1 ⟨n + 1, h⟩) (iblk m c 2 ⟨n + 1, h⟩) (iblk m c 3 ⟨n + 1, h⟩) (iblk m c 4 ⟨n + 1, h⟩) (outsAt0 m c n (Nat.lt_of_succ_lt h)).2)

/-- THE RUNNING TOTAL after point `t`: the terms of the tiles from the start of `t`'s run up to `t`. -/
theorem scratch_eq (c : Dev nD) (t : ℕ) (ht : t < cfg0.N) (i : S1x1.Idx) :
    (outsAt0 m c t ht).2 i = 0 + ∑ s ∈ Finset.range (t % 8 + 1), tile (W m c) (Sq m c) (8 * (t / 8) + s) := by
  have hN : cfg0.N = 16 := N_0
  have h' : 8 * (t / 8) + t % 8 < cfg0.N := by rw [Nat.div_add_mod]; exact ht
  have e := Pipeline.eq_accAt_of_mod (fun n h => (outsAt0 m c n h).2) 8 (fun n h => step m c n h (k0_pay2 (F := Ideal)))
    (fun n h acc => step m c n h acc) (fun n h h0 => scratch_reset m c n h h0)
    (fun n h hne => scratch_step m c n h hne) (by decide) t ht h'
  refine (congrFun e i).trans ?_
  exact Pipeline.accAt_add_apply (fun n h => step m c n h (k0_pay2 (F := Ideal))) (fun n h acc => step m c n h acc)
    (fun _ => (0 : EReal)) (fun n _ => tile (W m c) (Sq m c) n) (8 * (t / 8)) 7
    (fun h i => by rw [step_apply, pay2_zero])
    (fun n h acc i _ _ => step_apply m c n h acc i)
    (t % 8) (by omega) h' i

/-- THE FILL at the last point of a run: every entry of the core's output block is the sum of the run's eight terms. -/
theorem out_eq (c : Dev nD) (t : Fin cfg0.N) (h7 : t.val % 8 = 7) (r : Fin 8) (l : Fin 128) :
    (outsAt0 m c t.val t.isLt).1 (ix2 r l)
      = 0 + ∑ s ∈ Finset.range 8, tile (W m c) (Sq m c) (8 * (t.val / 8) + s) := by
  have h0 : ¬t.val % 8 = 0 := by omega
  have e1 : (outsAt0 m c t.val t.isLt).1 = k0_pay1 (outsAt0 m c t.val t.isLt).2 := by
    rw [outsAt0_C m c t h0 h7]
    dsimp only
    rw [Acc.out_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h' => h0 ((hcond0_0 t).mp h')) ((hcond0_1 t).mpr h7) (iblk m c 0 t) (iblk m c 1 t) (iblk m c 2 t) (iblk m c 3 t) (iblk m c 4 t) (outsAt0 m c (t.val - 1) (Nat.lt_of_le_of_lt (Nat.sub_le _ _) t.isLt)).2,
      Acc.scratch_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h' => h0 ((hcond0_0 t).mp h')) ((hcond0_1 t).mpr h7) (iblk m c 0 t) (iblk m c 1 t) (iblk m c 2 t) (iblk m c 3 t) (iblk m c 4 t) (outsAt0 m c (t.val - 1) (Nat.lt_of_le_of_lt (Nat.sub_le _ _) t.isLt)).2]
  rw [e1, Tile.pay1_apply, scratch_eq m c t.val t.isLt, h7]

end Cert.KernelIdeal.Running

end
-- ==== Proof.Result.lean ====
/-
  The kernel's result.

  The output array is [16, 128]: two blocks of eight rows, one per core. The block of rows `8 r … 8 r + 7` is written
  back once, after the last point of core `r`'s run, filled with that run's total; the two blocks cover the array. So
  after the launch entry `(i, l)` holds the sum of the eight tile terms of run `i / 8`. The lines after the launch read
  entries `(0, 0)` and `(8, 0)`, add them and divide by the number of entries: the two runs' totals together are the
  weighted sum of all the squared differences, so the result is the loss.
-/
import proofs.«133901_j17970143166491_2_alg».proof.Proof.Running
import Idealize.ShloMosaic.Lib.StableHlo.Run

set_option maxRecDepth 16384

noncomputable section

open Idealize.ShloMosaic Idealize.ShloMosaic.TcCoe Idealize.SL.Sem
open Idealize.ShloMosaic.Pipeline (Dat)

namespace Cert.KernelIdeal.Result

open Cert.KernelIdeal Cert.KernelIdeal.Gen Cert.WeightedSquares Idealize.ShloMosaic.ValueIdx
open Cert.KernelIdeal.Running (W Sq)

variable (m : (ℓ : Loc nD τ sig) → Buf (Elt Ideal) ℓ) (ρ : Dev nD → PrngReg)

/-- A run's total: the sum of its eight tiles' terms (over the zero the run starts from). -/
def runTotal (c : Dev nD) (r : ℕ) : EReal := 0 + ∑ s ∈ Finset.range 8, tile (W m c) (Sq m c) (8 * r + s)

/-- The output array after the launch: row `i` holds the total of run `i / 8`. -/
def outArr (c : Dev nD) : S16x128.Idx → EReal := fun i => runTotal m c ((i 0).val / 8)

/-- WHAT A WRITE-BACK WRITES: the block of `outArr` it covers. -/
theorem flushed_eq (c : Dev nD) (t : Fin cfg0.N) (hf : (cfg0.win 5).flush t = true) :
    (dats m 0 c).flushed 5 t = ((cfg0.win 5).blk t).view.read (Elt Ideal) (outArr m c) := by
  have h7 : t.val % 8 = 7 := (flush0_5 t).mp hf
  show (cfg0.win 5).cut (grid0.coords t) ((dats m 0 c).after 5 t) = _
  rw [after0_5]
  funext y
  obtain ⟨r, l, rfl⟩ : ∃ (r : Fin 8) (l : Fin 128), y = ix2 r l := ⟨y 0, y 1, eq_ix2 (n0 := 8) (n1 := 128) y⟩
  show (outsAt0 m c t.val t.isLt).1 (ix2 r l) = outArr m c (((cfg0.win 5).blk t).view.emb (ix2 r l))
  rw [Running.out_eq m c t h7 r l]
  have he : ((((cfg0.win 5).blk t).view.emb (ix2 r l)) 0).val / 8 = t.val / 8 := by
    show (win0_5.index t 0 * 8 + 1 * r.val) / 8 = t.val / 8
    rw [(Blocks.idx_facts t).2.2.2.2.2.1]; omega
  show _ = runTotal m c (((((cfg0.win 5).blk t).view.emb (ix2 r l)) 0).val / 8)
  rw [he]
  rfl

/-- An index of the output array is in point `t`'s block iff each coordinate is in the block's range on its axis. -/
theorem mem_blk (t : Fin cfg0.N) (i : S16x128.Idx) :
    i ∈ ((cfg0.win 5).blk t).view.set
      ↔ ∀ a : Fin 2, win0_5.index t a * S8x128.size a ≤ (i a).val ∧ (i a).val < win0_5.index t a * S8x128.size a + S8x128.size a := by
  show i ∈ ((View.whole main_v4).slice (win0_5.rect t)).set ↔ _
  rw [View.set_slice_whole, Rect.mem_set_unit]
  exact Iff.rfl

/-- Every entry of the output array is under the block written back after the last point of its rows' run. -/
theorem cover (i : S16x128.Idx) :
    ∃ t : Fin cfg0.N, (cfg0.win 5).flush t = true ∧ i ∈ ((cfg0.win 5).blk t).view.set := by
  have hi0 : (i 0).val < 16 := (i 0).isLt
  have hi1 : (i 1).val < 128 := (i 1).isLt
  have hN : cfg0.N = 16 := N_0
  have hlt : 8 * ((i 0).val / 8) + 7 < cfg0.N := by rw [hN]; omega
  obtain ⟨-, -, -, -, -, e0, e1⟩ := Blocks.idx_facts ⟨8 * ((i 0).val / 8) + 7, hlt⟩
  refine ⟨⟨8 * ((i 0).val / 8) + 7, hlt⟩, (flush0_5 _).mpr (by show (8 * ((i 0).val / 8) + 7) % 8 = 7; omega), ?_⟩
  rw [mem_blk]
  intro a
  match a with
  | ⟨0, _⟩ =>
    show win0_5.index ⟨8 * ((i 0).val / 8) + 7, hlt⟩ 0 * 8 ≤ (i 0).val ∧ (i 0).val < win0_5.index ⟨8 * ((i 0).val / 8) + 7, hlt⟩ 0 * 8 + 8
    rw [e0]
    show (8 * ((i 0).val / 8) + 7) / 8 * 8 ≤ (i 0).val ∧ (i 0).val < (8 * ((i 0).val / 8) + 7) / 8 * 8 + 8
    omega
  | ⟨1, _⟩ =>
    show win0_5.index ⟨8 * ((i 0).val / 8) + 7, hlt⟩ 1 * 128 ≤ (i 1).val ∧ (i 1).val < win0_5.index ⟨8 * ((i 0).val / 8) + 7, hlt⟩ 1 * 128 + 128
    rw [e1]; omega

/-- THE OUTPUT ARRAY after the launch. -/
theorem final_out (c : Dev nD) : (dats m 0 c).arrAt 5 cfg0.N = outArr m c :=
  (dats m 0 c).arrAt_eq_of_cover 5 (outArr m c) (fun t hf => flushed_eq m c t hf) cover

/-- The lines after the launch, as one function of the output array: entries `(0, 0)` and `(8, 0)` added, over the
    number of entries. -/
def tail (o : S16x128.Idx → EReal) : S_.Idx → EReal :=
  Host.divf (F := Ideal)
    (addf (F := Ideal) (shapeCast S_ (extractStridedSlice S1x1 ![0, 0] o slices_S16x128_S1x1_0_0) shapeCasts_S1x1_S_)
      (shapeCast S_ (extractStridedSlice S1x1 ![8, 0] o slices_S16x128_S1x1_8_0) shapeCasts_S1x1_S_))
    (constant (F := Ideal) S_ .f32 0x4B880000#32)

/-- Read at its one index. -/
theorem tail_apply (o : S16x128.Idx → EReal) (j : S_.Idx) :
    tail o j = Ideal.div (o (ix2 (0 : Fin 16) (0 : Fin 128)) + o (ix2 (8 : Fin 16) (0 : Fin 128))) (Ideal.ofBits .f32 0x4B880000#32) := by
  unfold tail
  show Ideal.div (_ + _) _ = _
  refine congrArg₂ Ideal.div (congrArg₂ (· + ·) ?_ ?_) rfl
  · refine (shapeCast_apply _ shapeCasts_S1x1_S_ j (ix2 (0 : Fin 1) (0 : Fin 1)) ?_).trans ?_
    · have hj : ((S_ : Shape).rowMajor j).val < 1 := (S_.rowMajor j).isLt
      rw [Shape.rowMajor_val_two]; show 0 * 1 + 0 = _; omega
    · exact extractStridedSlice_apply _ o slices_S16x128_S1x1_0_0 _ (ix2 (0 : Fin 16) (0 : Fin 128)) fun a => by
        match a with
        | ⟨0, _⟩ => rfl
        | ⟨1, _⟩ => rfl
  · refine (shapeCast_apply _ shapeCasts_S1x1_S_ j (ix2 (0 : Fin 1) (0 : Fin 1)) ?_).trans ?_
    · have hj : ((S_ : Shape).rowMajor j).val < 1 := (S_.rowMajor j).isLt
      rw [Shape.rowMajor_val_two]; show 0 * 1 + 0 = _; omega
    · exact extractStridedSlice_apply _ o slices_S16x128_S1x1_8_0 _ (ix2 (8 : Fin 16) (0 : Fin 128)) fun a => by
        match a with
        | ⟨0, _⟩ => rfl
        | ⟨1, _⟩ => rfl

/-- The result buffer after the lines that follow the launch is `tail` of the output array. -/
theorem tail_eq (c : Dev nD) :
    Pipeline.afterTail₀ cfgs (dats m) 0 (V0 m) [hostOps1] c main_v10 = tail (outArr m c) := by
  have hw : Pipeline.withArrays spec0 c (V0 m c) (fun w => (dats m 0 c).arrAt w cfg0.N) (Proc.devRef .tc main_v4) = outArr m c :=
    (Pipeline.withArrays_arr spec0 launch0.win.arr_inj c _ _ 5).trans (final_out m c)
  unfold Pipeline.afterTail₀
  show StableHlo.after hostOps1 _ (Proc.devRef .tc main_v10) = _
  after_results
  show tail (Pipeline.withArrays spec0 c (V0 m c) (fun w => (dats m 0 c).arrAt w cfg0.N) (Proc.devRef .tc main_v4)) = _
  rw [hw]

/-- The two runs' totals, added and divided, are the loss. -/
theorem tail_out (c : Dev nD) (j : S_.Idx) : tail (outArr m c) j = loss (m ((c : Thread nD τ).loc main_arg0)) (m ((c : Thread nD τ).loc main_arg1)) (m ((c : Thread nD τ).loc main_arg2)) (m ((c : Thread nD τ).loc main_arg3)) (m ((c : Thread nD τ).loc main_arg4)) := by
  rw [tail_apply]
  unfold loss
  refine congrArg₂ Ideal.div ?_ rfl
  show runTotal m c (0 / 8) + runTotal m c (8 / 8) = _
  unfold runTotal
  rw [zero_add, zero_add]
  exact tiles_eq _ _ _ _ _

/-- THE KERNEL'S RUN, READ: the result at the loss of the argument arrays, the arguments unchanged. -/
theorem run : θ_run defs (onTc (τ := τ) (main (F := Ideal))) ⟨m, fun _ => 0, ρ⟩ fun r => ∀ c : Dev nD,
      r.2.mem ((c : Thread nD τ).loc main_v10) = (fun _ => loss (m ((c : Thread nD τ).loc main_arg0)) (m ((c : Thread nD τ).loc main_arg1)) (m ((c : Thread nD τ).loc main_arg2)) (m ((c : Thread nD τ).loc main_arg3)) (m ((c : Thread nD τ).loc main_arg4)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
    ⟨((h c).2 main_v10 (Pipeline.mem_restRefs_of main_v10 (by decide) (by decide))).trans
        ((tail_eq m c).trans (funext fun j => tail_out m c j)),
      ((h c).1 1).trans (((dats m 0 c).arrAt_in 1 rfl _).trans ((A_eq m c 1).trans (V_main_arg0 m c))),
      ((h c).1 2).trans (((dats m 0 c).arrAt_in 2 rfl _).trans ((A_eq m c 2).trans (V_main_arg1 m c))),
      ((h c).1 3).trans (((dats m 0 c).arrAt_in 3 rfl _).trans ((A_eq m c 3).trans (V_main_arg2 m c))),
      ((h c).1 4).trans (((dats m 0 c).arrAt_in 4 rfl _).trans ((A_eq m c 4).trans (V_main_arg3 m c))),
      ((h c).2 main_arg4 (Pipeline.mem_restRefs_of main_arg4 (by decide) (by decide))).trans (W_main_arg4 m (dats m) c)⟩)
    (run_main m ρ)

end Cert.KernelIdeal.Result

end
-- ==== Proof.RefValue.lean ====
/-
  The reference computes the loss.

  Read one operation at a time, the reference's result at its one index is: the zero it starts from plus the sum over
  every entry `(d, b)` of (the column's attribute weight times its angle weight) times the squared difference there,
  divided by the number of entries. The attribute weight is the sum over the six attributes of the flag — the comparison
  bit read as a natural number — times the inverse frequency, itself the counts' sum over the attribute's count; the
  angle weight the sum over the three angles of `1 - cos`. Entry by entry this is the specification's `loss`: the
  starting zeros vanish and the sum over the index pairs is the double sum over rows and columns.
-/
import proofs.«133901_j17970143166491_2_alg».proof.Proof.Gen.ReferenceIdeal.Read
import proofs.«133901_j17970143166491_2_alg».proof.Proof.Spec

noncomputable section

namespace Cert.ReferenceIdeal.RefValue

open Idealize.ShloMosaic Idealize.ShloMosaic.ValueIdx
open Cert.ReferenceIdeal Cert.ReferenceIdeal.Gen Cert.ReferenceIdeal.Read Cert.WeightedSquares

variable (x0 x1 : S136x131072.Idx → EReal) (x2 : S3x131072.Idx → EReal) (x3 : S6x131072.Idx → BitVec 32)
  (x4 : S6.Idx → EReal)

theorem e15 (a : Fin 136) (b : Fin 131072) : idx_main_v15 (idx_main_v18 (ix2 a b)) = ix1 b :=
  funext fun ax => Fin.ext (by match ax with | ⟨0, _⟩ => rfl)
theorem e9 (b : Fin 131072) (k : Fin 6) : idx_main_v9 (ix1 b) k = ix2 k b :=
  funext fun ax => Fin.ext (by match ax with | ⟨0, _⟩ => rfl | ⟨1, _⟩ => rfl)
theorem e13 (b : Fin 131072) (k : Fin 3) : idx_main_v13 (ix1 b) k = ix2 k b :=
  funext fun ax => Fin.ext (by match ax with | ⟨0, _⟩ => rfl | ⟨1, _⟩ => rfl)
theorem e6 (k : Fin 6) (b : Fin 131072) : idx_main_v6 (idx_main_v7 (ix2 k b)) = ix1 k :=
  funext fun ax => Fin.ext (by match ax with | ⟨0, _⟩ => rfl)

/-- The inverse frequency the reference broadcasts along the batch. -/
theorem v7_apply (k : Fin 6) (b : Fin 131072) : val_main_v7 (F := Ideal) x4 (ix2 k b) = invFreq x4 k := by
  rw [val_main_v7_apply, val_main_v6_apply, e6, val_main_v2_apply, val_main_v1_apply, val_main_v0_apply]
  show Ideal.div (Ideal.ofBits .f32 0x00000000#32 + _) _ = _
  rw [Ideal.ofBits_zero_f32, zero_add]
  rfl

/-- Column `b`'s attribute weight in the reference. -/
theorem v9_apply (b : Fin 131072) : val_main_v9 (F := Ideal) x3 x4 (ix1 b) = attrWeight x3 x4 b := by
  rw [val_main_v9_apply]
  show Ideal.ofBits .f32 0x00000000#32 + _ = _
  rw [Ideal.ofBits_zero_f32, zero_add]
  unfold attrWeight
  refine Finset.sum_congr rfl fun k _ => ?_
  rw [e9, val_main_v8_apply, v7_apply]
  rfl

/-- Column `b`'s angle weight in the reference. -/
theorem v13_apply (b : Fin 131072) : val_main_v13 (F := Ideal) x2 (ix1 b) = angleWeight x2 b := by
  rw [val_main_v13_apply]
  show Ideal.ofBits .f32 0x00000000#32 + _ = _
  rw [Ideal.ofBits_zero_f32, zero_add]
  unfold angleWeight
  refine Finset.sum_congr rfl fun k _ => ?_
  rw [e13]
  rfl

/-- One entry of the array the reference sums: the column's weight times the squared difference. -/
theorem v19_apply (a : Fin 136) (b : Fin 131072) :
    val_main_v19 (F := Ideal) x0 x1 x2 x3 x4 (ix2 a b) = colWeight x2 x3 x4 b * sqDiff x0 x1 a b := by
  rw [val_main_v19_apply, val_main_v18_apply, val_main_v15_apply, e15, val_main_v14_apply, v9_apply, v13_apply]
  rfl

/-- THE REFERENCE'S RESULT is the loss. -/
theorem result_eq (i : S_.Idx) : val_main_v21 (F := Ideal) x0 x1 x2 x3 x4 i = loss x0 x1 x2 x3 x4 := by
  rw [val_main_v21_apply, val_main_v20_apply]
  show Ideal.div (Ideal.ofBits .f32 0x00000000#32 + _) (Ideal.ofBits .f32 0x4B880000#32) = _
  rw [Ideal.ofBits_zero_f32, zero_add, sum_idx2]
  have h : (∑ a : Fin 136, ∑ b : Fin 131072, val_main_v19 (F := Ideal) x0 x1 x2 x3 x4 (ix2 a b))
      = total x0 x1 x2 x3 x4 :=
    Finset.sum_congr rfl fun a _ => Finset.sum_congr rfl fun b _ => v19_apply x0 x1 x2 x3 x4 a b
  rw [h]
  rfl

end Cert.ReferenceIdeal.RefValue

end
-- ==== Proof.lean ====
/-
  A weighted mean of squared differences, computed two ways, and why the two agree on the extended reals.

  The inputs are two [136, 131072] arrays `x`, `y`, three angles and six attribute flags per column, and six counts.
  Column `b` has the weight `w b = (∑ over the attributes whose flag is 1 of (∑ counts) / count k) · (∑ over the angles of
  1 - cos)`. The reference forms `w b · (x d b - y d b)²` for every entry, sums them all, and divides by the number of
  entries. The kernel walks the columns in sixteen tiles of 8192, eight tiles on each of two cores: in a tile it sums
  each column's squares over the 136 rows first and only then multiplies by the column's weight, adds the tile's columns
  into a running total that restarts with each core's run, and hands each core's total out in its own block of the
  output; the lines after the launch add the two totals and divide by the same count.

  On the extended reals addition is commutative and associative, so the order and the grouping of the sums do not
  matter. The one step that is not free is moving the weight across the sum over the rows: `w · ∑ s = ∑ w · s` can fail
  when `w` is infinite and the `s` have opposite signs. Here every `s` is a square, hence nonnegative (the
  infinities' squares included), and then the law holds for every `w`. The cosine, the quotient, the flags and the
  literals are the same functions and the same words on both sides, so nothing else needs a hypothesis: the claim holds
  without using that the inputs are finite.

  The kernel's frames are the generated ones; the reference's frame is its generated run with the result dropped; the
  idealization rewrote nothing, so there is nothing to preserve.
-/
import proofs.«133901_j17970143166491_2_alg».proof.Defs
import proofs.«133901_j17970143166491_2_alg».proof.Proof.Gen.Kernel
import proofs.«133901_j17970143166491_2_alg».proof.Proof.Gen.Kernel.Skeleton
import proofs.«133901_j17970143166491_2_alg».proof.Proof.Gen.Kernel.Launch
import proofs.«133901_j17970143166491_2_alg».proof.Proof.Gen.Kernel.Points
import proofs.«133901_j17970143166491_2_alg».proof.Proof.Gen.Kernel.Frame
import proofs.«133901_j17970143166491_2_alg».proof.Proof.Gen.KernelIdeal
import proofs.«133901_j17970143166491_2_alg».proof.Proof.Gen.KernelIdeal.Skeleton
import proofs.«133901_j17970143166491_2_alg».proof.Proof.Gen.KernelIdeal.Launch
import proofs.«133901_j17970143166491_2_alg».proof.Proof.Gen.KernelIdeal.Points
import proofs.«133901_j17970143166491_2_alg».proof.Proof.Gen.KernelIdeal.Frame
import proofs.«133901_j17970143166491_2_alg».proof.Proof.Gen.ReferenceIdeal
import proofs.«133901_j17970143166491_2_alg».proof.Proof.Gen.ReferenceIdeal.Run
import proofs.«133901_j17970143166491_2_alg».proof.Proof.Gen.ReferenceIdeal.Read
import proofs.«133901_j17970143166491_2_alg».proof.Proof.Gen.Pre_finite_inputs
import proofs.«133901_j17970143166491_2_alg».proof.Proof.Result
import proofs.«133901_j17970143166491_2_alg».proof.Proof.RefValue
import Idealize.ShloMosaic.Adequacy
import Idealize.ShloMosaic.Init

noncomputable section

namespace Cert.Proof

open Idealize.ShloMosaic Idealize.SL.Sem Cert.WeightedSquares

/-- The word-level kernel runs and keeps its arguments. -/
theorem frame_kernel : Cert.frame_Kernel :=
  fun m ρ _ => Cert.Kernel.Gen.frame m ρ

/-- So does its reading at the extended reals. -/
theorem frame_kernelIdeal : Cert.frame_KernelIdeal :=
  fun m ρ _ => Cert.KernelIdeal.Gen.frame m ρ

/-- The reference runs and keeps its arguments: its run, the result forgotten. -/
theorem frame_reference : Cert.frame_ReferenceIdeal :=
  fun m ρ _ => (θ_run Cert.ReferenceIdeal.defs _ _).mono (fun _ h c => (h c).2)
    (Cert.ReferenceIdeal.Value.run (F := Ideal) m ρ)

/-- The idealization rewrote no operation. -/
theorem preserves : Cert.preserves_Kernel_KernelIdeal := trivial

/-- From memories that agree on the arguments both programs end with the loss of those arguments. -/
theorem algebraic : Cert.algebraic_KernelIdeal_ReferenceIdeal := by
  intro m ρ m' ρ' _ hagree
  refine ⟨fun c => fun _ => loss (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq]
  funext i
  refine (Cert.ReferenceIdeal.RefValue.result_eq _ _ _ _ _ i).trans ?_
  rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
